-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S128x1 : Shape := ⟨2, ![128, 1]⟩
abbrev S128x2 : Shape := ⟨2, ![128, 2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S500000x2 .f32) (main_arg1 : FVec F S128x1 .f32) (main_arg2 : FVec F S128x1 .f32) (main_arg3 : FVec F S128x2 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S500000x2 : Shape := ⟨2, ![500000, 2]⟩
abbrev S128x1 : Shape := ⟨2, ![128, 1]⟩
abbrev S128x2 : Shape := ⟨2, ![128, 2]⟩
abbrev S1x128 : Shape := ⟨2, ![1, 128]⟩
abbrev S500000x1 : Shape := ⟨2, ![500000, 1]⟩
abbrev S5000x2 : Shape := ⟨2, ![5000, 2]⟩
abbrev S5000x1 : Shape := ⟨2, ![5000, 1]⟩
abbrev S5000x128 : Shape := ⟨2, ![5000, 128]⟩
abbrev S5000 : Shape := ⟨1, ![5000]⟩

abbrev nBuf : Space → Nat
  | .hbm => 11
  | .vmem => 8
  | .smem => 0
  | _ => 0

abbrev bufTy : (tb : Table) → Fin (tcTables nBuf tb) → BufTy
  | .hbm, ⟨0, _⟩ => ⟨S500000x2, .f32⟩
  | .hbm, ⟨1, _⟩ => ⟨S128x1, .f32⟩
  | .hbm, ⟨2, _⟩ => ⟨S128x1, .f32⟩
  | .hbm, ⟨3, _⟩ => ⟨S128x2, .f32⟩
  | .hbm, ⟨4, _⟩ => ⟨S1x128, .f32⟩
  | .hbm, ⟨5, _⟩ => ⟨S1x128, .f32⟩
  | .hbm, ⟨6, _⟩ => ⟨S128x1, .f32⟩
  | .hbm, ⟨7, _⟩ => ⟨S1x128, .f32⟩
  | .hbm, ⟨8, _⟩ => ⟨S128x1, .f32⟩
  | .hbm, ⟨9, _⟩ => ⟨S1x128, .f32⟩
  | .hbm, ⟨10, _⟩ => ⟨S500000x1, .f32⟩
  | .local _ .vmem, ⟨0, _⟩ => ⟨S5000x2, .f32⟩
  | .local _ .vmem, ⟨1, _⟩ => ⟨S5000x2, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x1, .f32⟩
  | .local _ .vmem, ⟨7, _⟩ => ⟨S5000x1, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x1_S1x128 : S128x1.ShapeCasts S1x128
  slices_S128x2_S128x1_0_0 : S128x2.Slices ![0, 0] S128x1
  slices_S128x2_S128x1_0_1 : S128x2.Slices ![0, 1] S128x1
  inb_S5000x2_S5000x1_0_0 : ∀ a, (![0, 0] : Fin 2 → Nat) a + S5000x1.size a ≤ S5000x2.size a
  h_S5000x1 : 0 < S5000x1.numel
  inb_S5000x2_S5000x1_0_1 : ∀ a, (![0, 1] : Fin 2 → Nat) a + S5000x1.size a ≤ S5000x2.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S500000x2.size a
  hwx0_0 : ∀ i : grid0.Coords, EltTy.bits .f32 = 32 ∨ (Rect.block (s := S500000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S500000x1.size a
  hwx0_5 : ∀ i : grid0.Coords, EltTy.bits .f32 = 32 ∨ (Rect.block (s := S500000x1) S5000x1.size (cc0_transform_5 i) (hinb0_5 i)).WholeWords (EltTy.packing .f32)

variable [Facts₀]

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x2 : Shape := ⟨2, ![500000, 2]⟩
abbrev S128x1 : Shape := ⟨2, ![128, 1]⟩
abbrev S128x2 : Shape := ⟨2, ![128, 2]⟩
abbrev S500000x1 : Shape := ⟨2, ![500000, 1]⟩
abbrev S500000x1x1 : Shape := ⟨3, ![500000, 1, 1]⟩
abbrev S1x128x1 : Shape := ⟨3, ![1, 128, 1]⟩
abbrev S500000x128x1 : Shape := ⟨3, ![500000, 128, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S128x1, .f32⟩
  | .hbm, ⟨2, _⟩ => ⟨S128x1, .f32⟩
  | .hbm, ⟨3, _⟩ => ⟨S128x2, .f32⟩
  | .hbm, ⟨4, _⟩ => ⟨S500000x1, .f32⟩
  | .hbm, ⟨5, _⟩ => ⟨S500000x1x1, .f32⟩
  | .hbm, ⟨6, _⟩ => ⟨S128x1, .f32⟩
  | .hbm, ⟨7, _⟩ => ⟨S1x128x1, .f32⟩
  | .hbm, ⟨8, _⟩ => ⟨S500000x128x1, .f32⟩
  | .hbm, ⟨9, _⟩ => ⟨S500000x128x1, .f32⟩
  | .hbm, ⟨10, _⟩ => ⟨S500000x128x1, .f32⟩
  | .hbm, ⟨11, _⟩ => ⟨S500000x1, .f32⟩
  | .hbm, ⟨12, _⟩ => ⟨S500000x1x1, .f32⟩
  | .hbm, ⟨13, _⟩ => ⟨S128x1, .f32⟩
  | .hbm, ⟨14, _⟩ => ⟨S1x128x1, .f32⟩
  | .hbm, ⟨15, _⟩ => ⟨S500000x128x1, .f32⟩
  | .hbm, ⟨16, _⟩ => ⟨S500000x128x1, .f32⟩
  | .hbm, ⟨17, _⟩ => ⟨S500000x128x1, .f32⟩
  | .hbm, ⟨18, _⟩ => ⟨S500000x128x1, .f32⟩
  | .hbm, ⟨19, _⟩ => ⟨S_, .f32⟩
  | .hbm, ⟨20, _⟩ => ⟨S500000x128x1, .f32⟩
  | .hbm, ⟨21, _⟩ => ⟨S500000x128x1, .f32⟩
  | .hbm, ⟨22, _⟩ => ⟨S1x128x1, .f32⟩
  | .hbm, ⟨23, _⟩ => ⟨S500000x128x1, .f32⟩
  | .hbm, ⟨24, _⟩ => ⟨S500000x128x1, .f32⟩
  | .hbm, ⟨25, _⟩ => ⟨S128x1, .f32⟩
  | .hbm, ⟨26, _⟩ => ⟨S1x128x1, .f32⟩
  | .hbm, ⟨27, _⟩ => ⟨S500000x128x1, .f32⟩
  | .hbm, ⟨28, _⟩ => ⟨S500000x128x1, .f32⟩
  | .hbm, ⟨29, _⟩ => ⟨S500000x128x1, .f32⟩
  | .hbm, ⟨30, _⟩ => ⟨S128x1, .f32⟩
  | .hbm, ⟨31, _⟩ => ⟨S1x128x1, .f32⟩
  | .hbm, ⟨32, _⟩ => ⟨S500000x128x1, .f32⟩
  | .hbm, ⟨33, _⟩ => ⟨S500000x128x1, .f32⟩
  | .hbm, ⟨34, _⟩ => ⟨S500000x128x1, .f32⟩
  | .hbm, ⟨35, _⟩ => ⟨S500000x128x1, .f32⟩
  | .hbm, ⟨36, _⟩ => ⟨S_, .f32⟩
  | .hbm, ⟨37, _⟩ => ⟨S500000x1, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩

abbrev nD : Nat := 1
abbrev τ : Topo := Topo.v7x

variable {F : FTy → Type} [FloatOps F]

class Facts₀ : Prop where
  slices_S500000x2_S500000x1_0_0 : S500000x2.Slices ![0, 0] S500000x1
  bcast_S500000x1_S500000x1x1_0_2 : S500000x1.BroadcastsInDim S500000x1x1 (![0, 2] : Fin 2 → Fin S500000x1x1.rank)
  bcast_S128x1_S1x128x1_1_2 : S128x1.BroadcastsInDim S1x128x1 (![1, 2] : Fin 2 → Fin S1x128x1.rank)
  bcast_S500000x1x1_S500000x128x1_0_1_2 : S500000x1x1.BroadcastsInDim S500000x128x1 (![0, 1, 2] : Fin 3 → Fin S500000x128x1.rank)
  bcast_S1x128x1_S500000x128x1_0_1_2 : S1x128x1.BroadcastsInDim S500000x128x1 (![0, 1, 2] : Fin 3 → Fin S500000x128x1.rank)
  slices_S500000x2_S500000x1_0_1 : S500000x2.Slices ![0, 1] S500000x1
  bcast_S_S500000x128x1 : S_.BroadcastsInDim S500000x128x1 (![] : Fin 0 → Fin S500000x128x1.rank)
  slices_S128x2_S128x1_0_0 : S128x2.Slices ![0, 0] S128x1
  slices_S128x2_S128x1_0_1 : S128x2.Slices ![0, 1] S128x1
  reducesTo_S500000x128x1_S500000x1_d1 : S500000x128x1.ReducesTo [1] S500000x1
  h_S_ : 0 < S_.numel

variable [Facts₀]

class Facts : Prop extends Facts₀ where

variable [Facts]
-- ==== Proof.Waves.lean ====
/-
  The function both programs compute, stated once over the four argument arrays.

  A point n has two coordinates x(n,0), x(n,1).  A wave w has a rotation r(w), a frequency f(w) and two
  coefficients c(w,0), c(w,1).  The point's coordinate along the wave's direction is
  x(n,0)·cos r(w) + x(n,1)·sin r(w); its phase is (τ · that coordinate) · f(w), where τ is the float32
  word nearest 2π read as its exact binary value; the wave contributes c(w,0)·sin(phase) + c(w,1)·cos(phase),
  and the result at n is the sum of the 128 waves' contributions.  Everything is on the extended reals:
  sums and products are the extended reals' own, sin and cos are the total functions of the ideal instance.
-/
import Idealize.ShloMosaic.PureOps.Ideal
import Idealize.ShloMosaic.Lib.ValueIdx

noncomputable section

open scoped BigOperators

namespace Cert.Waves

open Idealize.ShloMosaic Idealize.ShloMosaic.ValueIdx

/-- The float32 word nearest 2π, as the exact binary value it denotes. -/
abbrev tau : EReal := Ideal.ofBits .f32 0x40C90FDB#32

/-- The phase of a point with coordinates `x0`, `x1` on a wave of rotation `r` and frequency `f`:
    (τ · (x0·cos r + x1·sin r)) · f, multiplied in this order. -/
def phase (x0 x1 r f : EReal) : EReal :=
  tau * (x0 * Ideal.cos r + x1 * Ideal.sin r) * f

/-- One wave's contribution at one point: c0·sin(phase) + c1·cos(phase). -/
def wave (x0 x1 r f c0 c1 : EReal) : EReal :=
  c0 * Ideal.sin (phase x0 x1 r f) + c1 * Ideal.cos (phase x0 x1 r f)

/-- The result array: entry (n, 0) is the sum over the 128 waves of the wave's contribution at point n. -/
def total (x : FVec Ideal ⟨2, ![500000, 2]⟩ .f32) (f r : FVec Ideal ⟨2, ![128, 1]⟩ .f32)
    (c : FVec Ideal ⟨2, ![128, 2]⟩ .f32) : FVec Ideal ⟨2, ![500000, 1]⟩ .f32 :=
  fun i => ∑ w : Fin 128, wave (x (ix2 (i 0) 0)) (x (ix2 (i 0) 1)) (r (ix2 w 0)) (f (ix2 w 0))
    (c (ix2 w 0)) (c (ix2 w 1))

end Cert.Waves

end
-- ==== Proof.RefWaves.lean ====
/-
  The reference computes `Waves.total`.

  The reference spreads every operand to a [500000, 128, 1] array (points × waves × a unit axis), computes the
  waves' contributions there entry by entry, and sums over the wave axis from zero.  Read at (n, w, 0) each
  spread operand is the argument's entry for point n or for wave w, so the entry is `Waves.wave` of those six
  numbers; the sum from zero over w is the plain sum.
-/
import proofs.«126408_j39161511805435_1_alg».proof.Proof.Gen.ReferenceIdeal.Read
import proofs.«126408_j39161511805435_1_alg».proof.Proof.Waves
import Idealize.ShloMosaic.PureOps.Ideal.Laws

noncomputable section

open scoped BigOperators

namespace Cert.RefWaves

open Cert.ReferenceIdeal Cert.ReferenceIdeal.Read Idealize.ShloMosaic Idealize.ShloMosaic.ValueIdx Cert.Waves

variable (x : FVec Ideal S500000x2 .f32) (f r : FVec Ideal S128x1 .f32) (c : FVec Ideal S128x2 .f32)

/-- The entry (n, w, 0) of the array the reference sums over its wave axis is wave w's contribution at point n. -/
theorem summand (i : S500000x1.Idx) (w : Fin 128) :
    val_main_v30 (F := Ideal) x f r c (idx_main_v31 i w)
      = wave (x (ix2 (i 0) 0)) (x (ix2 (i 0) 1)) (r (ix2 w 0)) (f (ix2 w 0)) (c (ix2 w 0)) (c (ix2 w 1)) := by
  have ex0 : idx_main_v0 (idx_main_v1 (idx_main_v4 (idx_main_v31 i w))) = ix2 (i 0) 0 :=
    funext fun a => Fin.ext (by match a with | ⟨0, _⟩ => rfl | ⟨1, _⟩ => rfl)
  have ex1 : idx_main_v7 (idx_main_v8 (idx_main_v11 (idx_main_v31 i w))) = ix2 (i 0) 1 :=
    funext fun a => Fin.ext (by match a with | ⟨0, _⟩ => rfl | ⟨1, _⟩ => rfl)
  have erc : idx_main_v3 (idx_main_v5 (idx_main_v31 i w)) = ix2 w 0 :=
    funext fun a => Fin.ext (by match a with | ⟨0, _⟩ => rfl | ⟨1, _⟩ => rfl)
  have ers : idx_main_v10 (idx_main_v12 (idx_main_v31 i w)) = ix2 w 0 :=
    funext fun a => Fin.ext (by match a with | ⟨0, _⟩ => rfl | ⟨1, _⟩ => rfl)
  have ef : idx_main_v17 (idx_main_v18 (idx_main_v31 i w)) = ix2 w 0 :=
    funext fun a => Fin.ext (by match a with | ⟨0, _⟩ => rfl | ⟨1, _⟩ => rfl)
  have ec0 : idx_main_v20 (idx_main_v21 (idx_main_v23 (idx_main_v31 i w))) = ix2 w 0 :=
    funext fun a => Fin.ext (by match a with | ⟨0, _⟩ => rfl | ⟨1, _⟩ => rfl)
  have ec1 : idx_main_v25 (idx_main_v26 (idx_main_v28 (idx_main_v31 i w))) = ix2 w 1 :=
    funext fun a => Fin.ext (by match a with | ⟨0, _⟩ => rfl | ⟨1, _⟩ => rfl)
  simp only [val_main_v30_apply, val_main_v24_apply, val_main_v29_apply, val_main_v23_apply, val_main_v28_apply,
    val_main_v21_apply, val_main_v26_apply, val_main_v20_apply, val_main_v25_apply, val_main_v22_apply,
    val_main_v27_apply, val_main_v19_apply, val_main_v18_apply, val_main_v17_apply, val_main_v16_apply,
    val_main_v15_apply, val_main_cst_apply, val_main_v14_apply, val_main_v6_apply, val_main_v13_apply,
    val_main_v4_apply, val_main_v5_apply, val_main_v11_apply, val_main_v12_apply, val_main_v1_apply,
    val_main_v8_apply, val_main_v0_apply, val_main_v7_apply, val_main_v3_apply, val_main_v10_apply,
    val_main_v2_apply, val_main_v9_apply, ex0, ex1, erc, ers, ef, ec0, ec1]
  rfl

/-- The reference's result, as a function of the four arguments, is `Waves.total`. -/
theorem ref_total : val_main_v31 (F := Ideal) x f r c = total x f r c := by
  funext i
  rw [val_main_v31_apply, val_main_cst_0_apply, Ideal.ofBits_def, Ideal.ofBits_zero_f32, zero_add]
  exact Finset.sum_congr rfl fun w _ => summand x f r c i w

end Cert.RefWaves

end
-- ==== Proof.BlockWaves.lean ====
/-
  What the kernel body leaves in one output block.

  The body holds a block of 5000 points (two columns, one per coordinate) and four rows of 128 lanes (rotations,
  frequencies and the two coefficient columns, one lane per wave).  It spreads the two point columns across the
  lanes and the four rows down the points, computes each wave's contribution at each point lane by lane, and
  sums the 128 lanes of every row.  So the block's entry for point p is the sum over the waves w of
  `Waves.wave` of the point's two coordinates and the wave's four numbers.
-/
import proofs.«126408_j39161511805435_1_alg».proof.Proof.Gen.KernelIdeal.Value
import proofs.«126408_j39161511805435_1_alg».proof.Proof.Waves
import Idealize.ShloMosaic.PureOps.Ideal.Laws
import Idealize.ShloMosaic.Lib.Pipeline.Value

noncomputable section

open scoped BigOperators

namespace Cert.BlockWaves

open Cert.KernelIdeal Cert.KernelIdeal.Gen Idealize.ShloMosaic Idealize.ShloMosaic.ValueIdx Cert.Waves

/-- A column of 5000 entries spread across 128 lanes: lane k of row p is the column's entry p. -/
theorem spread_col (v : FVec Ideal S5000x1 .f32) (h : S5000x1.Broadcasts S5000x128) (p : Fin 5000) (k : Fin 128) :
    broadcastTo S5000x128 v h (ix2 p k) = v (ix2 p 0) :=
  broadcastTo_apply v h (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A row of 128 lanes spread down 5000 rows: lane k of row p is the row's lane k. -/
theorem spread_row (v : FVec Ideal S1x128 .f32) (h : S1x128.Broadcasts S5000x128) (p : Fin 5000) (k : Fin 128) :
    broadcastTo S5000x128 v h (ix2 p k) = v (ix2 0 k) :=
  broadcastTo_apply v h (ix2 p k) (ix2 0 k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The sum of a row's 128 lanes, from a zero accumulator, is the sum over the lanes. -/
theorem lane_sum (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  exact Finset.sum_congr rfl fun k _ => congrArg src
    (funext fun a => Fin.ext (by match a with | ⟨0, _⟩ => rfl | ⟨1, _⟩ => rfl))

theorem sin_at {s : Shape} (v : FVec Ideal s .f32) (i : s.Idx) : sin v i = Ideal.sin (v i) := rfl
theorem cos_at {s : Shape} (v : FVec Ideal s .f32) (i : s.Idx) : cos v i = Ideal.cos (v i) := rfl

/-- The block's entry for point p, as a function of the six loaded pieces: the sum over the waves of the wave's
    contribution at the point.  `c0`, `c1` are the coefficient rows, `xa`, `xb` the coordinate columns, `rot` and
    `frq` the rotation and frequency rows. -/
theorem block_entry (c0 : Vec Ideal S1x128 .f32) (xa : Vec Ideal S5000x1 .f32) (rot : Vec Ideal S1x128 .f32)
    (xb : Vec Ideal S5000x1 .f32) (frq : Vec Ideal S1x128 .f32) (c1 : Vec Ideal S1x128 .f32) (p : Fin 5000) :
    Value.E5 (F := Ideal) c0 xa rot xb frq c1 (ix2 p 0)
      = ∑ w : Fin 128, wave (xa (ix2 p 0)) (xb (ix2 p 0)) (rot (ix2 0 w)) (frq (ix2 0 w)) (c0 (ix2 0 w)) (c1 (ix2 0 w)) := by
  have e : Value.ix5_0 (ix2 p (0 : Fin 1)) = ix1 p :=
    funext fun a => Fin.ext (by match a with | ⟨0, _⟩ => rfl)
  refine (congrArg _ e).trans ?_
  refine (lane_sum _ _ _ _ p).trans ?_
  refine Finset.sum_congr rfl fun w _ => ?_
  simp only [addf_apply, mulf_apply, sin_at, cos_at, broadcast_apply, spread_col, spread_row, shapeCast_self]
  rfl

end Cert.BlockWaves

end
-- ==== Proof.ArrayWaves.lean ====
/-
  From the blocks to the whole result array.

  The grid has 100 points; point t holds rows 5000·t … 5000·t + 4999 of the point array (both columns) and writes
  the same rows of the one-column result.  The four rows of 128 lanes are the same at every point: the host lays
  them out before the region, the rotations and the frequencies by re-reading a [128, 1] column as a [1, 128] row,
  the two coefficient rows by first taking column 0 or 1 of the [128, 2] coefficient array.  So what point t
  writes back is block t of `Waves.total` of the four argument arrays, the 100 blocks tile the result, and the
  result array after the run is `Waves.total`.
-/
import proofs.«126408_j39161511805435_1_alg».proof.Proof.BlockWaves
import Idealize.ShloMosaic.Lib.StableHlo.Run

set_option maxRecDepth 16384

noncomputable section

open scoped BigOperators

namespace Cert.ArrayWaves

open Cert.KernelIdeal Cert.KernelIdeal.Gen Idealize.ShloMosaic Idealize.ShloMosaic.TcCoe Idealize.SL.Sem
open Idealize.ShloMosaic.ValueIdx Cert.Waves Cert.BlockWaves
open Idealize.ShloMosaic.Pipeline (Dat)

variable (m : (ℓ : Loc nD τ sig) → Buf (Elt Ideal) ℓ) (ρ : Dev nD → PrngReg)

/-! ## The rows the host lays out -/

/-- A [128, 1] column re-read as a [1, 128] row: lane w of the row is entry w of the column. -/
theorem column_as_row (v : FVec Ideal S128x1 .f32) (h : S128x1.ShapeCasts S1x128) (w : Fin 128) :
    shapeCast S1x128 v h (ix2 0 w) = v (ix2 w 0) :=
  shapeCast_apply v h (ix2 0 w) (ix2 w 0) (by
    rw [Shape.rowMajor_val_two, Shape.rowMajor_val_two]
    show w.val * 1 + 0 = 0 * 128 + w.val
    omega)

/-- Column q of the [128, 2] coefficient array, as a [128, 1] column: entry w is the array's (w, q). -/
theorem coeff_col0 (v : FVec Ideal S128x2 .f32) (h : S128x2.Slices ![0, 0] S128x1) (w : Fin 128) :
    extractStridedSlice S128x1 ![0, 0] v h (ix2 w 0) = v (ix2 w 0) :=
  extractStridedSlice_apply ![0, 0] v h (ix2 w 0) (ix2 w 0) (fun a => match a with
    | ⟨0, _⟩ => by show w.val = 0 + w.val; omega
    | ⟨1, _⟩ => by show 0 = 0 + 0; omega)

theorem coeff_col1 (v : FVec Ideal S128x2 .f32) (h : S128x2.Slices ![0, 1] S128x1) (w : Fin 128) :
    extractStridedSlice S128x1 ![0, 1] v h (ix2 w 0) = v (ix2 w 1) :=
  extractStridedSlice_apply ![0, 1] v h (ix2 w 0) (ix2 w 1) (fun a => match a with
    | ⟨0, _⟩ => by show w.val = 0 + w.val; omega
    | ⟨1, _⟩ => by show 1 = 1 + 0; omega)

/-- The rotation row as the region finds it. -/
theorem rot_row (c : Dev nD) : (V m c main_v0 : S1x128.Idx → EReal)
    = shapeCast S1x128 (m ((c : Thread nD τ).loc main_arg2)) shapeCasts_S128x1_S1x128 := by
  dsimp only [V, hostOps0]; after_results; rfl

/-- The frequency row as the region finds it. -/
theorem frq_row (c : Dev nD) : (V m c main_v1 : S1x128.Idx → EReal)
    = shapeCast S1x128 (m ((c : Thread nD τ).loc main_arg1)) shapeCasts_S128x1_S1x128 := by
  dsimp only [V, hostOps0]; after_results; rfl

/-- The first coefficient row as the region finds it. -/
theorem c0_row (c : Dev nD) : (V m c main_v3 : S1x128.Idx → EReal)
    = shapeCast S1x128 (extractStridedSlice S128x1 ![0, 0] (m ((c : Thread nD τ).loc main_arg3)) slices_S128x2_S128x1_0_0)
        shapeCasts_S128x1_S1x128 := by
  dsimp only [V, hostOps0]; after_results; rfl

/-- The second coefficient row as the region finds it. -/
theorem c1_row (c : Dev nD) : (V m c main_v5 : S1x128.Idx → EReal)
    = shapeCast S1x128 (extractStridedSlice S128x1 ![0, 1] (m ((c : Thread nD τ).loc main_arg3)) slices_S128x2_S128x1_0_1)
        shapeCasts_S128x1_S1x128 := by
  dsimp only [V, hostOps0]; after_results; rfl

/-! ## One output block from the six loaded pieces -/

/-- The body's load of column 0 of its point block. -/
theorem ld_xa (x0 : Vec Ideal S5000x2 .f32) (p : Fin 5000) : View.ld x0 r0_0 (ix2 p (0 : Fin 1)) = x0 (ix2 p 0) :=
  congrArg x0 (funext fun a => Fin.ext (by
    match a with
    | ⟨0, _⟩ => show 0 + 1 * p.val = p.val; omega
    | ⟨1, _⟩ => show 0 + 1 * 0 = 0; omega))

/-- The body's load of column 1 of its point block. -/
theorem ld_xb (x0 : Vec Ideal S5000x2 .f32) (p : Fin 5000) : View.ld x0 r0_1 (ix2 p (0 : Fin 1)) = x0 (ix2 p 1) :=
  congrArg x0 (funext fun a => Fin.ext (by
    match a with
    | ⟨0, _⟩ => show 0 + 1 * p.val = p.val; omega
    | ⟨1, _⟩ => show 1 + 1 * 0 = 1; omega))

/-- The body's load of a whole row of lanes. -/
theorem ld_row (x : Vec Ideal S1x128 .f32) (w : Fin 128) : View.ld x r0_2 (ix2 (0 : Fin 1) w) = x (ix2 0 w) :=
  congrArg x (funext fun a => Fin.ext (by
    match a with
    | ⟨0, _⟩ => show 0 + 1 * 0 = 0; omega
    | ⟨1, _⟩ => show 0 + 1 * w.val = w.val; omega))

/-- What the body leaves in the output block, for arbitrary contents of the five input blocks: the entry for
    point p is the sum over the waves of the wave's contribution at the point. -/
theorem out_entry (x0 : Vec Ideal S5000x2 .f32) (x1 x2 x3 x4 : Vec Ideal S1x128 .f32) (p : Fin 5000) :
    out0_5 x0 x1 x2 x3 x4 (ix2 p 0)
      = ∑ w : Fin 128, wave (x0 (ix2 p 0)) (x0 (ix2 p 1)) (x1 (ix2 0 w)) (x2 (ix2 0 w)) (x3 (ix2 0 w)) (x4 (ix2 0 w)) := by
  unfold out0_5
  refine (Value.canon5_eq (F := Ideal) (View.ld x3 r0_2) (View.ld x0 r0_0) (View.ld x1 r0_2) (View.ld x0 r0_1)
    (View.ld x2 r0_2) (View.ld x4 r0_2) (ix2 p 0)).trans ?_
  refine (block_entry _ _ _ _ _ _ p).trans ?_
  refine Finset.sum_congr rfl fun w _ => ?_
  rw [ld_xa, ld_xb, ld_row, ld_row, ld_row, ld_row]

/-! ## The blocks at a grid point -/

/-- The printed index maps over the 100 grid points: the point block moves with the output block down the rows and
    sits at column block 0; the four rows of lanes stay at block (0, 0); the output's row block is at most 99. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 99 :=
  (by decide +kernel : ∀ t : Fin grid0.N, _)

/-- Every one of the 100 row blocks of the result is some point's. -/
theorem idx_onto : ∀ q : Fin 100, ∃ t : Fin cfg0.N, win0_5.index t = ![q.val, 0] :=
  (by decide +kernel : ∀ q : Fin 100, ∃ t : Fin grid0.N, win0_5.index t = ![q.val, 0])

/-- What the body leaves in the output block at point `t`, at the block's index `y`, is `Waves.total` of the four
    argument arrays at the array index under it: the point block's row p is row 5000·(block index) + p of the
    point array, and the four rows of lanes are the host's re-laid arguments. -/
theorem point_entry (c : Dev nD) (t : Fin cfg0.N) (y : S5000x1.Idx) :
    out0_5 (iblk m c 0 t) (iblk m c 1 t) (iblk m c 2 t) (iblk m c 3 t) (iblk m c 4 t) y
      = total (m ((c : Thread nD τ).loc main_arg0)) (m ((c : Thread nD τ).loc main_arg1))
          (m ((c : Thread nD τ).loc main_arg2)) (m ((c : Thread nD τ).loc main_arg3))
          (((cfg0.win 5).blk t).view.emb y) := by
  obtain ⟨p, q, rfl⟩ : ∃ (p : Fin 5000) (q : Fin 1), y = ix2 p q := ⟨y 0, y 1, eq_ix2 y⟩
  obtain rfl : q = 0 := Subsingleton.elim _ _
  obtain ⟨e0, e1, e2, e3, e4, e5, e6, e7, e8, e9, e10, e11⟩ := idx_facts t
  refine (out_entry (iblk m c 0 t) (iblk m c 1 t) (iblk m c 2 t) (iblk m c 3 t) (iblk m c 4 t) p).trans ?_
  unfold total
  refine Finset.sum_congr rfl fun w _ => ?_
  have hx : ∀ q : Fin 2, iblk m c 0 t (ix2 p q)
      = m ((c : Thread nD τ).loc main_arg0) (ix2 ((((cfg0.win 5).blk t).view.emb (ix2 p (0 : Fin 1))) 0) q) := by
    intro q
    have hq : q.val < 2 := q.isLt
    show V m c main_arg0 (((cfg0.win 0).blk t).view.emb (ix2 p q)) = _
    refine (congrFun (V_main_arg0 m c) _).trans (congrArg _ (funext fun a => Fin.ext ?_))
    match a with
    | ⟨0, _⟩ => show win0_0.index t (0 : Fin 2) * 5000 + 1 * p.val = win0_5.index t (0 : Fin 2) * 5000 + 1 * p.val; omega
    | ⟨1, _⟩ => show win0_0.index t (1 : Fin 2) * 2 + 1 * q.val = q.val; omega
  have hrot : iblk m c 1 t (ix2 0 w) = m ((c : Thread nD τ).loc main_arg2) (ix2 w 0) := by
    show V m c main_v0 (((cfg0.win 1).blk t).view.emb (ix2 (0 : Fin 1) w)) = _
    have e : ((cfg0.win 1).blk t).view.emb (ix2 (0 : Fin 1) w) = ix2 0 w := funext fun a => Fin.ext (by
      match a with
      | ⟨0, _⟩ => show win0_1.index t (0 : Fin 2) * 1 + 1 * 0 = 0; omega
      | ⟨1, _⟩ => show win0_1.index t (1 : Fin 2) * 128 + 1 * w.val = w.val; omega)
    exact ((congrArg (V m c main_v0) e).trans (congrFun (rot_row m c) _)).trans (column_as_row _ _ w)
  have hfrq : iblk m c 2 t (ix2 0 w) = m ((c : Thread nD τ).loc main_arg1) (ix2 w 0) := by
    show V m c main_v1 (((cfg0.win 2).blk t).view.emb (ix2 (0 : Fin 1) w)) = _
    have e : ((cfg0.win 2).blk t).view.emb (ix2 (0 : Fin 1) w) = ix2 0 w := funext fun a => Fin.ext (by
      match a with
      | ⟨0, _⟩ => show win0_2.index t (0 : Fin 2) * 1 + 1 * 0 = 0; omega
      | ⟨1, _⟩ => show win0_2.index t (1 : Fin 2) * 128 + 1 * w.val = w.val; omega)
    exact ((congrArg (V m c main_v1) e).trans (congrFun (frq_row m c) _)).trans (column_as_row _ _ w)
  have hc0 : iblk m c 3 t (ix2 0 w) = m ((c : Thread nD τ).loc main_arg3) (ix2 w 0) := by
    show V m c main_v3 (((cfg0.win 3).blk t).view.emb (ix2 (0 : Fin 1) w)) = _
    have e : ((cfg0.win 3).blk t).view.emb (ix2 (0 : Fin 1) w) = ix2 0 w := funext fun a => Fin.ext (by
      match a with
      | ⟨0, _⟩ => show win0_3.index t (0 : Fin 2) * 1 + 1 * 0 = 0; omega
      | ⟨1, _⟩ => show win0_3.index t (1 : Fin 2) * 128 + 1 * w.val = w.val; omega)
    exact (((congrArg (V m c main_v3) e).trans (congrFun (c0_row m c) _)).trans (column_as_row _ _ w)).trans
      (coeff_col0 _ _ w)
  have hc1 : iblk m c 4 t (ix2 0 w) = m ((c : Thread nD τ).loc main_arg3) (ix2 w 1) := by
    show V m c main_v5 (((cfg0.win 4).blk t).view.emb (ix2 (0 : Fin 1) w)) = _
    have e : ((cfg0.win 4).blk t).view.emb (ix2 (0 : Fin 1) w) = ix2 0 w := funext fun a => Fin.ext (by
      match a with
      | ⟨0, _⟩ => show win0_4.index t (0 : Fin 2) * 1 + 1 * 0 = 0; omega
      | ⟨1, _⟩ => show win0_4.index t (1 : Fin 2) * 128 + 1 * w.val = w.val; omega)
    exact (((congrArg (V m c main_v5) e).trans (congrFun (c1_row m c) _)).trans (column_as_row _ _ w)).trans
      (coeff_col1 _ _ w)
  rw [hx 0, hx 1, hrot, hfrq, hc0, hc1]

/-- What point `t` writes back is block `t` of `Waves.total` of the four argument arrays. -/
theorem flushed_eq (c : Dev nD) (t : Fin cfg0.N) :
    (dats m 0 c).flushed 5 t = ((cfg0.win 5).blk t).view.read (Elt Ideal)
      (total (m ((c : Thread nD τ).loc main_arg0)) (m ((c : Thread nD τ).loc main_arg1))
        (m ((c : Thread nD τ).loc main_arg2)) (m ((c : Thread nD τ).loc main_arg3))) := by
  rw [Value.flushed5]
  funext j
  exact point_entry m c t j

/-! ## The 100 blocks tile the result -/

/-- An index of the result is in point `t`'s block iff each coordinate is in the block's range on its axis. -/
theorem mem_blk (t : Fin cfg0.N) (i : S500000x1.Idx) :
    i ∈ ((cfg0.win 5).blk t).view.set ↔ ∀ a : Fin 2, win0_5.index t a * S5000x1.size a ≤ (i a).val
      ∧ (i a).val < win0_5.index t a * S5000x1.size a + S5000x1.size a := by
  show i ∈ ((View.whole main_v6).slice (win0_5.rect t)).set ↔ _
  rw [View.set_slice_whole, Rect.mem_set_unit]
  exact Iff.rfl

/-- Row r of the result lies in the block of the point whose row block is r / 5000. -/
theorem cover (i : S500000x1.Idx) :
    ∃ t : Fin cfg0.N, (cfg0.win 5).flush t = true ∧ i ∈ ((cfg0.win 5).blk t).view.set := by
  have hi0 : (i 0).val < 500000 := (i 0).isLt
  have hi1 : (i 1).val < 1 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 1 ≤ (i 1).val ∧ (i 1).val < win0_5.index t (1 : Fin 2) * 1 + 1
    omega

/-- The result array after the run is `Waves.total` of the four argument arrays. -/
theorem final (c : Dev nD) : (dats m 0 c).arrAt 5 cfg0.N
    = total (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed_eq m c t) cover

/-- The kernel's run: every weakly fair execution terminates with the result at `Waves.total` of the arguments and
    the arguments unchanged. -/
theorem run : θ_run defs (onTc (τ := τ) (main (F := Ideal))) ⟨m, fun _ => 0, ρ⟩ fun r => ∀ c : Dev nD,
      r.2.mem ((c : Thread nD τ).loc main_v6)
        = total (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.ArrayWaves

end
-- ==== Proof.lean ====
/-
  The kernel and its reference compute one function of their four arguments, on the extended reals.

  For a point n with coordinates x(n,0), x(n,1) and a wave w with rotation r(w), frequency f(w) and coefficients
  c(w,0), c(w,1), both programs form the phase (τ · (x(n,0)·cos r(w) + x(n,1)·sin r(w))) · f(w) — τ the same
  float32 word for 2π in both, multiplied in the same order — then c(w,0)·sin(phase) + c(w,1)·cos(phase), and sum
  the 128 waves from zero: `Waves.total` (Proof/Waves.lean).  The two differ only in arrangement: the reference
  spreads everything to points × waves × 1 and sums the wave axis at once (Proof/RefWaves.lean); the kernel takes
  5000 points at a time against four rows of 128 lanes the host has laid out, sums each row's lanes
  (Proof/BlockWaves.lean), and its 100 blocks tile the result (Proof/ArrayWaves.lean).  No law of arithmetic beyond
  0 + s = s is used, so the inputs' finiteness is never opened.

  The three programs run, fault-free, with their arguments unchanged: the two kernels by their frame theorems, the
  reference by its run.  The idealized kernel is the word-level kernel's text read at the ideal instance with no
  rewrite applied, so that conjunct is `True`.
-/
import proofs.«126408_j39161511805435_1_alg».proof.Defs
import proofs.«126408_j39161511805435_1_alg».proof.Proof.Gen.Kernel
import proofs.«126408_j39161511805435_1_alg».proof.Proof.Gen.Kernel.Frame
import proofs.«126408_j39161511805435_1_alg».proof.Proof.Gen.KernelIdeal
import proofs.«126408_j39161511805435_1_alg».proof.Proof.Gen.KernelIdeal.Frame
import proofs.«126408_j39161511805435_1_alg».proof.Proof.Gen.ReferenceIdeal
import proofs.«126408_j39161511805435_1_alg».proof.Proof.Gen.Pre_finite_inputs
import proofs.«126408_j39161511805435_1_alg».proof.Proof.Gen.KernelIdeal.Value
import proofs.«126408_j39161511805435_1_alg».proof.Proof.Gen.ReferenceIdeal.Run
import proofs.«126408_j39161511805435_1_alg».proof.Proof.Gen.ReferenceIdeal.Read
import proofs.«126408_j39161511805435_1_alg».proof.Proof.RefWaves
import proofs.«126408_j39161511805435_1_alg».proof.Proof.ArrayWaves
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, with the value of its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at `Waves.total` of the arguments; the arguments agree. -/
theorem algebraic : Cert.algebraic_KernelIdeal_ReferenceIdeal := by
  intro m ρ m' ρ' _ hagree
  refine ⟨_, Cert.ArrayWaves.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.RefWaves.ref_total, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
